-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S50000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S50000x128 .f32 := Host.absf main_arg5
  let main_cst_6 : FVec F S_ .f32 := constant S_ .f32 0x7F800000#32
  let main_v20 : FVec F S50000x128 .f32 := broadcastInDim S50000x128 ![] bcast_S_S50000x128 main_cst_6
  let main_v21 : IVec S50000x128 1 := cmpf .olt main_v19 main_v20
  let main_c_7 : IVec S_ 1 := constantI S_ 1 1#1
  let main_v22 : IVec S_ 1 := (fun x v => Host.reduce IntOp.andi x v reducesTo_S50000x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S50000x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S5000x128 : Shape := ⟨2, ![5000, 128]⟩
abbrev S5000 : Shape := ⟨1, ![5000]⟩
abbrev S5000x1 : Shape := ⟨2, ![5000, 1]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 30
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S50000x128, .f32⟩
  | .hbm, ⟨6, _⟩ => ⟨S50000x128, .f32⟩
  | .hbm, ⟨7, _⟩ => ⟨S50000x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S50000x1 : Shape := ⟨2, ![50000, 1]⟩
abbrev S1x800000 : Shape := ⟨2, ![1, 800000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S50000x128, .f32⟩
  | .hbm, ⟨6, _⟩ => ⟨S_, .f32⟩
  | .hbm, ⟨7, _⟩ => ⟨S50000, .f32⟩
  | .hbm, ⟨8, _⟩ => ⟨S50000x1, .f32⟩
  | .hbm, ⟨9, _⟩ => ⟨S_, .f32⟩
  | .hbm, ⟨10, _⟩ => ⟨S50000x1, .f32⟩
  | .hbm, ⟨11, _⟩ => ⟨S50000x1, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S_, .f32⟩
  | .hbm, ⟨16, _⟩ => ⟨S50000, .f32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S1x800000, .i32⟩
  | .hbm, ⟨31, _⟩ => ⟨S800000, .i32⟩
  | .hbm, ⟨32, _⟩ => ⟨S1x800000, .i32⟩
  | .hbm, ⟨33, _⟩ => ⟨S800000, .i32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x1, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run, with its result named.

  @main is three segments: the first region (layer normalisation and the product with the weights, ten row
  tiles), a stretch of host operations (the edge gather, the scaling by the edge weights, the scatter-add into
  the destination rows, and the bias kept as a row), and the second region (bias, dropout mask and residual, ten
  row tiles).  Every weakly fair execution runs the three in order; the buffers after the last segment are the
  fold `Gen.W3` through the segments from the launch memory.  Here that fold is read at the result buffer as well
  as at the six argument buffers: the result ends at `Gen.W3 m ρ c` of its buffer, the arguments as launched.
-/
import proofs.«172591_j31980326486308_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the six argument arrays as launched. -/
theorem run : θ_run defs (onTc (τ := τ) (main (F := F))) ⟨m, fun _ => 0, ρ⟩ (fun r => ∀ c : Dev nD,
      r.2.mem ((c.tc : Thread nD τ).loc main_v19) = W3 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v19 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.ValueRun

end
-- ==== Proof.Spec.lean ====
/-
  Layer normalisation of the rows of a matrix, and its product with a weight matrix, entry by entry on the
  extended reals.

  For a matrix x with n columns, row p has mean  μ_p = (Σ_k x_{p,k}) / 128  and variance
  σ²_p = (Σ_k (x_{p,k} − μ_p)²) / 128; the normalised entry is  (x_{p,q} − μ_p) · (σ²_p + ε)^(−1/2),  with 128 and
  ε the two float constants both programs carry (the words 0x43000000 and 0x3727C5AC, never evaluated here).  The
  projected entry is  Σ_k normed_{p,k} · w_{k,q}.  The number of rows is a variable: a tile of 5000 rows and the
  whole array of 50000 rows are instances of the same functions, and a row's value depends on that row only
  (`normed_congr`, `proj_congr`), which is what lets a tile of the result be read off the tile of the argument.
-/
import Idealize.ShloMosaic.PureOps.Ideal
import Idealize.ShloMosaic.PureOps.Ideal.Laws
import Idealize.ShloMosaic.Lib.ValueIdx

noncomputable section

open scoped BigOperators

namespace Cert.LayerNormSpec

open Idealize.ShloMosaic Idealize.ShloMosaic.ValueIdx

variable {a n : ℕ}

/-- The divisor of both means: the float 128.0, as its word. -/
abbrev width : EReal := Ideal.ofBits .f32 0x43000000#32
/-- The stabiliser added to the variance: the float nearest 1e-5, as its word. -/
abbrev eps : EReal := Ideal.ofBits .f32 0x3727C5AC#32

/-- The mean of row `p`: the sum of its entries over 128.0. -/
def rowMean (x : (⟨2, ![a, n]⟩ : Shape).Idx → EReal) (p : Fin a) : EReal :=
  Ideal.div (∑ k : Fin n, x (ix2 p k)) width

/-- Entry (p, q) less the mean of its row. -/
def centred (x : (⟨2, ![a, n]⟩ : Shape).Idx → EReal) (p : Fin a) (q : Fin n) : EReal :=
  x (ix2 p q) - rowMean x p

/-- The variance of row `p`: the sum of its squared centred entries over 128.0. -/
def rowVar (x : (⟨2, ![a, n]⟩ : Shape).Idx → EReal) (p : Fin a) : EReal :=
  Ideal.div (∑ k : Fin n, centred x p k * centred x p k) width

/-- The normalised entry (p, q). -/
def normed (x : (⟨2, ![a, n]⟩ : Shape).Idx → EReal) (p : Fin a) (q : Fin n) : EReal :=
  centred x p q * Ideal.rsqrt (rowVar x p + eps)

/-- The projected entry (p, q): row `p` of the normalised matrix against column `q` of the weights. -/
def proj {b : ℕ} (x : (⟨2, ![a, n]⟩ : Shape).Idx → EReal) (w : (⟨2, ![n, b]⟩ : Shape).Idx → EReal)
    (p : Fin a) (q : Fin b) : EReal :=
  ∑ k : Fin n, normed x p k * w (ix2 k q)

variable {a' : ℕ}

/-- A row's mean depends on that row only. -/
theorem rowMean_congr (x : (⟨2, ![a, n]⟩ : Shape).Idx → EReal) (y : (⟨2, ![a', n]⟩ : Shape).Idx → EReal)
    (p : Fin a) (p' : Fin a') (h : ∀ k : Fin n, x (ix2 p k) = y (ix2 p' k)) : rowMean x p = rowMean y p' := by
  unfold rowMean
  rw [Finset.sum_congr rfl fun k _ => h k]

theorem centred_congr (x : (⟨2, ![a, n]⟩ : Shape).Idx → EReal) (y : (⟨2, ![a', n]⟩ : Shape).Idx → EReal)
    (p : Fin a) (p' : Fin a') (h : ∀ k : Fin n, x (ix2 p k) = y (ix2 p' k)) (q : Fin n) :
    centred x p q = centred y p' q := by
  unfold centred
  rw [h q, rowMean_congr x y p p' h]

theorem rowVar_congr (x : (⟨2, ![a, n]⟩ : Shape).Idx → EReal) (y : (⟨2, ![a', n]⟩ : Shape).Idx → EReal)
    (p : Fin a) (p' : Fin a') (h : ∀ k : Fin n, x (ix2 p k) = y (ix2 p' k)) : rowVar x p = rowVar y p' := by
  unfold rowVar
  rw [Finset.sum_congr rfl fun k _ => by rw [centred_congr x y p p' h k]]

/-- A normalised entry depends on its row of the argument only. -/
theorem normed_congr (x : (⟨2, ![a, n]⟩ : Shape).Idx → EReal) (y : (⟨2, ![a', n]⟩ : Shape).Idx → EReal)
    (p : Fin a) (p' : Fin a') (h : ∀ k : Fin n, x (ix2 p k) = y (ix2 p' k)) (q : Fin n) :
    normed x p q = normed y p' q := by
  unfold normed
  rw [centred_congr x y p p' h q, rowVar_congr x y p p' h]

/-- A projected entry depends on its row of the argument, and on the weights. -/
theorem proj_congr {b : ℕ} (x : (⟨2, ![a, n]⟩ : Shape).Idx → EReal) (y : (⟨2, ![a', n]⟩ : Shape).Idx → EReal)
    (w w' : (⟨2, ![n, b]⟩ : Shape).Idx → EReal) (p : Fin a) (p' : Fin a')
    (h : ∀ k : Fin n, x (ix2 p k) = y (ix2 p' k)) (q : Fin b) (hw : ∀ k : Fin n, w (ix2 k q) = w' (ix2 k q)) :
    proj x w p q = proj y w' p' q := by
  unfold proj
  exact Finset.sum_congr rfl fun k _ => by rw [normed_congr x y p p' h k, hw k]

/-! ## The two arrays of 50000 rows -/

/-- The normalised array: entry (r, q) is the normalised entry of row r. -/
def normedArr (x : (⟨2, ![50000, 128]⟩ : Shape).Idx → EReal) : (⟨2, ![50000, 128]⟩ : Shape).Idx → EReal :=
  fun i => normed x (⟨(i 0).val, (i 0).isLt⟩ : Fin 50000) (⟨(i 1).val, (i 1).isLt⟩ : Fin 128)

/-- The projected array: entry (r, q) is row r of the normalised array against column q of the weights. -/
def projArr (x : (⟨2, ![50000, 128]⟩ : Shape).Idx → EReal) (w : (⟨2, ![128, 128]⟩ : Shape).Idx → EReal) :
    (⟨2, ![50000, 128]⟩ : Shape).Idx → EReal :=
  fun i => proj x w (⟨(i 0).val, (i 0).isLt⟩ : Fin 50000) (⟨(i 1).val, (i 1).isLt⟩ : Fin 128)

theorem normedArr_at (x : (⟨2, ![50000, 128]⟩ : Shape).Idx → EReal) (k : (⟨2, ![50000, 128]⟩ : Shape).Idx)
    (r : Fin 50000) (q : Fin 128) (h0 : (k 0).val = r.val) (h1 : (k 1).val = q.val) : normedArr x k = normed x r q := by
  unfold normedArr
  rw [show (⟨(k 0).val, (k 0).isLt⟩ : Fin 50000) = r from Fin.ext h0, show (⟨(k 1).val, (k 1).isLt⟩ : Fin 128) = q from Fin.ext h1]

theorem projArr_at (x : (⟨2, ![50000, 128]⟩ : Shape).Idx → EReal) (w : (⟨2, ![128, 128]⟩ : Shape).Idx → EReal)
    (k : (⟨2, ![50000, 128]⟩ : Shape).Idx) (r : Fin 50000) (q : Fin 128) (h0 : (k 0).val = r.val) (h1 : (k 1).val = q.val) :
    projArr x w k = proj x w r q := by
  unfold projArr
  rw [show (⟨(k 0).val, (k 0).isLt⟩ : Fin 50000) = r from Fin.ext h0, show (⟨(k 1).val, (k 1).isLt⟩ : Fin 128) = q from Fin.ext h1]

end Cert.LayerNormSpec

end
-- ==== Proof.LibLayoutEpi.lean ====
/-
  Layout operations read at an index given by coordinates, for the column shapes that arise when a matrix is reduced
  along its rows and the reduced axis is kept with extent one: a vector [a] cast to a column [a, 1]; a column [a, 1]
  broadcast along the rows of [a, b]; and the sum of a matrix [a, b] over its second axis, read at row r as the sum
  over the columns. General lemmas (any extents, any element type), in the style of the library's own layout lemmas.
-/
import Idealize.ShloMosaic.Lib.ValueIdx
import Idealize.ShloMosaic.Lib.ValueLayout
import Idealize.ShloMosaic.Lib.Pipeline.Value
import Idealize.ShloMosaic.PureOps.Ideal.Laws

namespace Cert.LayoutEpi

open Idealize.ShloMosaic Idealize.ShloMosaic.ValueIdx

variable {α : Type}

/-- A vector `[a]` cast to the column `[a, 1]` reads, at `(i, u)`, the operand at `i`, whatever the unit coordinate `u`:
both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the unit axis reads its
coordinate `0`, the row axis keeps its coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `r` with column `k` inserted on the reduced second axis is `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- At the ideal values a sum of a matrix `[a, b]` over its second axis, read at row `r`, is the sum over the columns of
the entries of that row, for any format and any accumulator word that is the sum's neutral one. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The same for the format f32 and the zero accumulator word, with the format fact stated as the disjunction itself and
the accumulator fact as the equation between the two zero words. -/
theorem multiReduction_add_row_f32 {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (r : Fin a) :
    multiReduction .add [1] ⟨1, ![a]⟩ src 0x00000000#32 h hφ hacc (ix1 r) = ∑ k : Fin b, src (ix2 r k) :=
  multiReduction_add_row src _ h hφ hacc r

/-- A reciprocal square root taken elementwise reads, at an index, the reciprocal square root of the element. -/
theorem rsqrt_apply {s : Shape} {φ : FTy} (x : FVec Ideal s φ) (i : s.Idx) : rsqrt x i = Ideal.rsqrt (x i) := rfl

end Cert.LayoutEpi
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.NormPayload.lean ====
/-
  What the first region's body computes from a tile, entry by entry on the extended reals.

  The body loads a tile x of 5000 rows and the whole 128 × 128 weight matrix w.  It sums each row, keeps the sums
  as a column, divides by 128.0, subtracts that column from every column of the tile, does the same with the
  squares for the variance, adds ε, takes the reciprocal square root and scales: this is the first store.  The
  second store is the product of that normalised tile with w, both rounded to bf16 on the way in (the identity
  on the extended reals), accumulated onto zeros.  Read at (p, q) these are the normalised and the projected
  entries of `Cert.LayerNormSpec` for the 5000-row tile.
-/
import proofs.«172591_j31980326486308_1_alg».proof.Proof.Gen.KernelIdeal.Skeleton
import proofs.«172591_j31980326486308_1_alg».proof.Proof.Spec
import proofs.«172591_j31980326486308_1_alg».proof.Proof.LibLayoutEpi
import proofs.«172591_j31980326486308_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.NormPayload

open Idealize.ShloMosaic Idealize.ShloMosaic.ValueIdx
open Cert.KernelIdeal Cert.KernelIdeal.Gen Cert.LayerNormSpec

/-- The row means of the tile, kept as a column. -/
def meanCol (x : Vec Ideal S5000x128 .f32) : FVec Ideal S5000x1 .f32 :=
  divf (shapeCast S5000x1 (multiReduction (F := Ideal) .add [1] S5000 x 0x00000000#32 reduces_S5000x128_S5000 (.inl rfl) rfl) shapeCasts_S5000_S5000x1)
    (broadcast S5000x1 (Scalar.ofBits .f32 0x43000000#32))

/-- The tile less its row means. -/
def cen (x : Vec Ideal S5000x128 .f32) : FVec Ideal S5000x128 .f32 :=
  subf x (broadcastTo S5000x128 (meanCol x) broadcasts_S5000x1_S5000x128)

/-- The row variances, kept as a column. -/
def varCol (x : Vec Ideal S5000x128 .f32) : FVec Ideal S5000x1 .f32 :=
  divf (shapeCast S5000x1 (multiReduction (F := Ideal) .add [1] S5000 (mulf (cen x) (cen x)) 0x00000000#32 reduces_S5000x128_S5000 (.inl rfl) rfl) shapeCasts_S5000_S5000x1)
    (broadcast S5000x1 (Scalar.ofBits .f32 0x43000000#32))

/-- The reciprocal square roots of the stabilised variances, kept as a column. -/
def scaleCol (x : Vec Ideal S5000x128 .f32) : FVec Ideal S5000x1 .f32 :=
  rsqrt (addf (varCol x) (broadcast S5000x1 (Scalar.ofBits .f32 0x3727C5AC#32)))

/-- The first store's value is the centred tile scaled row by row. -/
theorem pay1_eq (x : Vec Ideal S5000x128 .f32) :
    k0_pay1 (F := Ideal) x = mulf (cen x) (broadcastTo S5000x128 (scaleCol x) broadcasts_S5000x1_S5000x128) := rfl

theorem meanCol_apply (x : Vec Ideal S5000x128 .f32) (p : Fin 5000) :
    meanCol x (ix2 p (0 : Fin 1)) = rowMean x p := by
  unfold meanCol rowMean
  rw [divf_apply, Cert.LayoutEpi.shapeCast_a_a1_apply, Cert.LayoutEpi.multiReduction_add_row_f32]
  rfl

theorem cen_apply (x : Vec Ideal S5000x128 .f32) (p : Fin 5000) (q : Fin 128) :
    cen x (ix2 p q) = centred x p q := by
  unfold cen centred
  rw [subf_apply, Cert.LayoutEpi.broadcastTo_a1_ab_apply, meanCol_apply]

theorem varCol_apply (x : Vec Ideal S5000x128 .f32) (p : Fin 5000) :
    varCol x (ix2 p (0 : Fin 1)) = rowVar x p := by
  unfold varCol rowVar
  rw [divf_apply, Cert.LayoutEpi.shapeCast_a_a1_apply, Cert.LayoutEpi.multiReduction_add_row_f32]
  refine congrArg₂ Ideal.div (Finset.sum_congr rfl fun k _ => ?_) rfl
  rw [mulf_apply, cen_apply]

theorem scaleCol_apply (x : Vec Ideal S5000x128 .f32) (p : Fin 5000) :
    scaleCol x (ix2 p (0 : Fin 1)) = Ideal.rsqrt (rowVar x p + eps) := by
  unfold scaleCol
  rw [Cert.LayoutEpi.rsqrt_apply, addf_apply, varCol_apply]
  rfl

/-- The first store, at (p, q): the normalised entry of the tile. -/
theorem normed_payload (x : Vec Ideal S5000x128 .f32) (p : Fin 5000) (q : Fin 128) :
    k0_pay1 (F := Ideal) x (ix2 p q) = normed x p q := by
  rw [pay1_eq]
  unfold normed
  rw [mulf_apply, cen_apply, Cert.LayoutEpi.broadcastTo_a1_ab_apply, scaleCol_apply]

/-- The second store, at (p, q): the projected entry of the tile. -/
theorem proj_payload (x : Vec Ideal S5000x128 .f32) (w : Vec Ideal S128x128 .f32) (p : Fin 5000) (q : Fin 128) :
    k0_pay2 (F := Ideal) x w (ix2 p q) = proj x w p q := by
  unfold k0_pay2 proj
  refine (Cert.PlainMatmul.zero_acc_apply dot_S5000x128_S128x128_S5000x128_1_0_0_1_n_n_wf none _ _ p q).trans ?_
  refine Finset.sum_congr rfl fun k _ => ?_
  rw [truncf_apply, truncf_apply, normed_payload]

end Cert.KernelIdeal.NormPayload

end
-- ==== Proof.NormValue.lean ====
/-
  The two arrays the first region leaves, as functions of the arrays it finds.

  The region walks ten tiles of 5000 rows.  At tile t it reads rows 5000 t … 5000 t + 4999 of the argument and the
  whole weight matrix, and writes back the same rows of the normalised array and of the projected array.  A row of
  either result depends on the same row of the argument only, so what tile t writes is rows 5000 t … of ONE
  function of the whole argument; the ten tiles cover all 50000 rows (row r lies in tile r / 5000), so after the
  region the two arrays are those functions: `normedArr` and `projArr`.  Everything is stated at the contents `V`
  the region is entered with.
-/
import proofs.«172591_j31980326486308_1_alg».proof.Proof.Gen.KernelIdeal.Frame
import proofs.«172591_j31980326486308_1_alg».proof.Proof.NormPayload
import Idealize.ShloMosaic.Lib.Pipeline.Value

set_option maxRecDepth 16384

noncomputable section

namespace Cert.KernelIdeal.NormValue

open Idealize.ShloMosaic Idealize.ShloMosaic.TcCoe Idealize.SL.Sem Idealize.ShloMosaic.ValueIdx
open Idealize.ShloMosaic.Pipeline (Dat)
open Cert.KernelIdeal Cert.KernelIdeal.Gen Cert.LayerNormSpec

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten tiles: the three row-tiled windows sit at block (t, 0), the weights at (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Tile t of the argument is its rows 5000 t … 5000 t + 4999. -/
theorem tile_apply (c : Dev nD) (t : Fin cfg0.N) (p : Fin 5000) (q : Fin 128) (k : S50000x128.Idx)
    (hk0 : (k 0).val = 5000 * t.val + p.val) (hk1 : (k 1).val = q.val) :
    (iblk0 V c 0 t : Vec Ideal S5000x128 .f32) (ix2 p q) = (V c main_arg0 : S50000x128.Idx → EReal) k := by
  obtain ⟨e0, e1, -⟩ := index_facts t
  unfold iblk0
  rw [View.read_apply]
  show V c main_arg0 _ = V c main_arg0 k
  refine congrArg (V c main_arg0) (funext fun a => Fin.ext ?_)
  match a with
  | ⟨0, _⟩ => show win0_0.index t (0 : Fin 2) * 5000 + 1 * p.val = (k 0).val; rw [e0, hk0]; omega
  | ⟨1, _⟩ => show win0_0.index t (1 : Fin 2) * 128 + 1 * q.val = (k 1).val; rw [e1, hk1]; omega

/-- The weights' window holds the whole weight matrix at every tile. -/
theorem weights_apply (c : Dev nD) (t : Fin cfg0.N) (k : Fin 128) (q : Fin 128) :
    (iblk0 V c 1 t : Vec Ideal S128x128 .f32) (ix2 k q) = (V c main_arg3 : S128x128.Idx → EReal) (ix2 k q) := by
  obtain ⟨-, -, e0, e1, -⟩ := index_facts t
  unfold iblk0
  rw [View.read_apply]
  show V c main_arg3 _ = V c main_arg3 (ix2 k q)
  refine congrArg (V c main_arg3) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The array row of entry (p, ·) of tile t. -/
def rowOf (t : Fin cfg0.N) (p : Fin 5000) : Fin 50000 :=
  ⟨5000 * t.val + p.val, by have := t.isLt; have hN : cfg0.N = 10 := N_0; have := p.isLt; omega⟩

/-- What tile t writes back to the normalised array is rows 5000 t … of `normedArr` of the argument. -/
theorem flushed2_eq (c : Dev nD) (t : Fin cfg0.N) :
    (dat0 V c).flushed 2 t = ((cfg0.win 2).blk t).view.read (Elt Ideal) (normedArr (V c main_arg0)) := by
  show (cfg0.win 2).cut (grid0.coords t) ((dat0 V c).after 2 t) = _
  rw [after0_2]
  unfold out0_2
  rw [View.canon_unit_zero zero_offsets]
  simp only [View.ld_unit_zero (S := S5000x128) zero_offsets]
  obtain ⟨-, -, -, -, e0, e1, -⟩ := index_facts t
  funext j
  obtain ⟨p, q, rfl⟩ : ∃ (p : Fin 5000) (q : Fin 128), j = ix2 p q := ⟨j 0, j 1, eq_ix2 j⟩
  have hk0 : ((((cfg0.win 2).blk t).view.emb (ix2 p q)) 0).val = (rowOf t p).val := by
    show win0_2.index t (0 : Fin 2) * 5000 + 1 * p.val = 5000 * t.val + p.val; rw [e0]; omega
  have hk1 : ((((cfg0.win 2).blk t).view.emb (ix2 p q)) 1).val = q.val := by
    show win0_2.index t (1 : Fin 2) * 128 + 1 * q.val = q.val; rw [e1]; omega
  show k0_pay1 (iblk0 V c 0 t) (ix2 p q) = normedArr (V c main_arg0) (((cfg0.win 2).blk t).view.emb (ix2 p q))
  rw [normedArr_at (V c main_arg0) _ (rowOf t p) q hk0 hk1]
  refine (NormPayload.normed_payload (iblk0 V c 0 t) p q).trans ?_
  exact normed_congr (iblk0 V c 0 t) (V c main_arg0) p (rowOf t p)
    (fun k => tile_apply V c t p k (ix2 (rowOf t p) k) rfl rfl) q

/-- What tile t writes back to the projected array is rows 5000 t … of `projArr` of the argument and the weights. -/
theorem flushed3_eq (c : Dev nD) (t : Fin cfg0.N) :
    (dat0 V c).flushed 3 t = ((cfg0.win 3).blk t).view.read (Elt Ideal) (projArr (V c main_arg0) (V c main_arg3)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets]
  obtain ⟨-, -, -, -, -, -, e0, e1⟩ := index_facts t
  funext j
  obtain ⟨p, q, rfl⟩ : ∃ (p : Fin 5000) (q : Fin 128), j = ix2 p q := ⟨j 0, j 1, eq_ix2 j⟩
  have hk0 : ((((cfg0.win 3).blk t).view.emb (ix2 p q)) 0).val = (rowOf t p).val := by
    show win0_3.index t (0 : Fin 2) * 5000 + 1 * p.val = 5000 * t.val + p.val; rw [e0]; omega
  have hk1 : ((((cfg0.win 3).blk t).view.emb (ix2 p q)) 1).val = q.val := by
    show win0_3.index t (1 : Fin 2) * 128 + 1 * q.val = q.val; rw [e1]; omega
  show k0_pay2 (iblk0 V c 0 t) (iblk0 V c 1 t) (ix2 p q) = projArr (V c main_arg0) (V c main_arg3) (((cfg0.win 3).blk t).view.emb (ix2 p q))
  rw [projArr_at (V c main_arg0) (V c main_arg3) _ (rowOf t p) q hk0 hk1]
  refine (NormPayload.proj_payload (iblk0 V c 0 t) (iblk0 V c 1 t) p q).trans ?_
  exact proj_congr (iblk0 V c 0 t) (V c main_arg0) (iblk0 V c 1 t) (V c main_arg3) p (rowOf t p)
    (fun k => tile_apply V c t p k (ix2 (rowOf t p) k) rfl rfl) q (fun k => weights_apply V c t k q)

/-- An index of the normalised array lies in tile t's block iff each coordinate lies in the block's range. -/
theorem mem_blk2 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0_0).slice (win0_2.rect t)).set ↔ _
  rw [View.set_slice_whole, Rect.mem_set_unit]
  exact Iff.rfl

theorem mem_blk3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0_1).slice (win0_3.rect t)).set ↔ _
  rw [View.set_slice_whole, Rect.mem_set_unit]
  exact Iff.rfl

/-- The tile that holds row r. -/
def tileOf (i : S50000x128.Idx) : Fin cfg0.N :=
  ⟨(i 0).val / 5000, by have h : (i 0).val < 50000 := (i 0).isLt; have hN : cfg0.N = 10 := N_0; omega⟩

/-- Every index of the normalised array is in the block of the tile that holds its row. -/
theorem cover2 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨tileOf i, flush0_2 _, ?_⟩
  rw [mem_blk2]
  obtain ⟨-, -, -, -, e0, e1, -⟩ := index_facts (tileOf i)
  have ht : (tileOf i).val = (i 0).val / 5000 := rfl
  intro a
  match a with
  | ⟨0, _⟩ =>
    show win0_2.index (tileOf i) (0 : Fin 2) * 5000 ≤ (i 0).val ∧ (i 0).val < win0_2.index (tileOf i) (0 : Fin 2) * 5000 + 5000
    rw [e0, ht]; omega
  | ⟨1, _⟩ =>
    show win0_2.index (tileOf i) (1 : Fin 2) * 128 ≤ (i 1).val ∧ (i 1).val < win0_2.index (tileOf i) (1 : Fin 2) * 128 + 128
    rw [e1]; omega

theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨tileOf i, flush0_3 _, ?_⟩
  rw [mem_blk3]
  obtain ⟨-, -, -, -, -, -, e0, e1⟩ := index_facts (tileOf i)
  have ht : (tileOf i).val = (i 0).val / 5000 := rfl
  intro a
  match a with
  | ⟨0, _⟩ =>
    show win0_3.index (tileOf i) (0 : Fin 2) * 5000 ≤ (i 0).val ∧ (i 0).val < win0_3.index (tileOf i) (0 : Fin 2) * 5000 + 5000
    rw [e0, ht]; omega
  | ⟨1, _⟩ =>
    show win0_3.index (tileOf i) (1 : Fin 2) * 128 ≤ (i 1).val ∧ (i 1).val < win0_3.index (tileOf i) (1 : Fin 2) * 128 + 128
    rw [e1]; omega

/-- After the region the normalised array is `normedArr` of the argument as the region found it. -/
theorem final2 (c : Dev nD) : (dat0 V c).arrAt 2 cfg0.N = normedArr (V c main_arg0) :=
  (dat0 V c).arrAt_eq_of_cover 2 (normedArr (V c main_arg0)) (fun t _ => flushed2_eq V c t) cover2

/-- After the region the projected array is `projArr` of the argument and the weights as the region found them. -/
theorem final3 (c : Dev nD) : (dat0 V c).arrAt 3 cfg0.N = projArr (V c main_arg0) (V c main_arg3) :=
  (dat0 V c).arrAt_eq_of_cover 3 (projArr (V c main_arg0) (V c main_arg3)) (fun t _ => flushed3_eq V c t) cover3

end Cert.KernelIdeal.NormValue

end
-- ==== Proof.FinalizeValue.lean ====
/-
  The array the second region leaves, as a function of the arrays it finds.

  The region walks ten tiles of 5000 rows.  At tile t it reads rows 5000 t … 5000 t + 4999 of the aggregated
  messages, of the dropout mask and of the normalised array, and the bias kept as a 1 × 128 row, and writes back
  the same rows of  (agg + bias) · mask − normalised.  This is pointwise in (row, column), so what tile t writes is
  rows 5000 t … of ONE function of the four arrays, `outArr`, and the ten tiles cover all 50000 rows.  Everything
  is stated at the contents `V` the region is entered with.
-/
import proofs.«172591_j31980326486308_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.FinalizeValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Entry (r, q) of the result: the aggregate plus the bias of column q, times the mask, less the normalised entry. -/
def outArr (agg : S50000x128.Idx → EReal) (bias : S1x128.Idx → EReal) (mask inp : S50000x128.Idx → EReal) :
    S50000x128.Idx → EReal :=
  fun i => (agg i + bias (ix2 (0 : Fin 1) (⟨(i 1).val, (i 1).isLt⟩ : Fin 128))) * mask i - inp i

/-- The body's one store, as the operations of its four loads (the three shape casts are between equal shapes). -/
theorem pay_eq (x0 : Vec Ideal S5000x128 .f32) (x1 : Vec Ideal S1x128 .f32) (x2 x3 : Vec Ideal S5000x128 .f32) :
    k1_pay1 (F := Ideal) x0 x1 x2 x3
      = subf (mulf (addf (shapeCast S5000x128 x0 shapeCasts_S5000x128_S5000x128)
          (broadcastTo S5000x128 (shapeCast S1x128 x1 shapeCasts_S1x128_S1x128) broadcasts_S1x128_S5000x128)) x2)
          (shapeCast S5000x128 x3 shapeCasts_S5000x128_S5000x128) := rfl

/-- The store at (p, q): the bias row is read at column q whatever the row. -/
theorem payload_apply (x0 : Vec Ideal S5000x128 .f32) (x1 : Vec Ideal S1x128 .f32) (x2 x3 : Vec Ideal S5000x128 .f32)
    (p : Fin 5000) (q : Fin 128) :
    k1_pay1 (F := Ideal) x0 x1 x2 x3 (ix2 p q) = (x0 (ix2 p q) + x1 (ix2 (0 : Fin 1) q)) * x2 (ix2 p q) - x3 (ix2 p q) := by
  rw [pay_eq, subf_apply, mulf_apply, addf_apply, shapeCast_self, shapeCast_self, shapeCast_self, broadcastTo_1b_ab_apply]

/-- The printed index maps over the ten tiles: the row-tiled windows sit at block (t, 0), the bias row at (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Tile t of the aggregated messages is their rows 5000 t … 5000 t + 4999. -/
theorem agg_tile (c : Dev nD) (t : Fin cfg1.N) (p : Fin 5000) (q : Fin 128) (k : S50000x128.Idx)
    (hk0 : (k 0).val = 5000 * t.val + p.val) (hk1 : (k 1).val = q.val) :
    (iblk1 V c 0 t : Vec Ideal S5000x128 .f32) (ix2 p q) = (V c main_v17 : S50000x128.Idx → EReal) k := by
  obtain ⟨e0, e1, -⟩ := index_facts t
  unfold iblk1
  rw [View.read_apply]
  show V c main_v17 _ = V c main_v17 k
  refine congrArg (V c main_v17) (funext fun a => Fin.ext ?_)
  match a with
  | ⟨0, _⟩ => show win1_0.index t (0 : Fin 2) * 5000 + 1 * p.val = (k 0).val; rw [e0, hk0]; omega
  | ⟨1, _⟩ => show win1_0.index t (1 : Fin 2) * 128 + 1 * q.val = (k 1).val; rw [e1, hk1]; omega

/-- The bias window holds the whole 1 × 128 row at every tile. -/
theorem bias_row (c : Dev nD) (t : Fin cfg1.N) (q : Fin 128) :
    (iblk1 V c 1 t : Vec Ideal S1x128 .f32) (ix2 (0 : Fin 1) q) = (V c main_v18 : S1x128.Idx → EReal) (ix2 (0 : Fin 1) q) := by
  obtain ⟨-, -, e0, e1, -⟩ := index_facts t
  unfold iblk1
  rw [View.read_apply]
  show V c main_v18 _ = V c main_v18 (ix2 (0 : Fin 1) q)
  refine congrArg (V c main_v18) (funext fun a => Fin.ext ?_)
  match a with
  | ⟨0, _⟩ => show win1_1.index t (0 : Fin 2) * 1 + 1 * 0 = 0; rw [e0]
  | ⟨1, _⟩ => show win1_1.index t (1 : Fin 2) * 128 + 1 * q.val = q.val; rw [e1]; omega

/-- Tile t of the dropout mask is its rows 5000 t … 5000 t + 4999. -/
theorem mask_tile (c : Dev nD) (t : Fin cfg1.N) (p : Fin 5000) (q : Fin 128) (k : S50000x128.Idx)
    (hk0 : (k 0).val = 5000 * t.val + p.val) (hk1 : (k 1).val = q.val) :
    (iblk1 V c 2 t : Vec Ideal S5000x128 .f32) (ix2 p q) = (V c main_arg5 : S50000x128.Idx → EReal) k := by
  obtain ⟨-, -, -, -, e0, e1, -⟩ := index_facts t
  unfold iblk1
  rw [View.read_apply]
  show V c main_arg5 _ = V c main_arg5 k
  refine congrArg (V c main_arg5) (funext fun a => Fin.ext ?_)
  match a with
  | ⟨0, _⟩ => show win1_2.index t (0 : Fin 2) * 5000 + 1 * p.val = (k 0).val; rw [e0, hk0]; omega
  | ⟨1, _⟩ => show win1_2.index t (1 : Fin 2) * 128 + 1 * q.val = (k 1).val; rw [e1, hk1]; omega

/-- Tile t of the normalised array is its rows 5000 t … 5000 t + 4999. -/
theorem normed_tile (c : Dev nD) (t : Fin cfg1.N) (p : Fin 5000) (q : Fin 128) (k : S50000x128.Idx)
    (hk0 : (k 0).val = 5000 * t.val + p.val) (hk1 : (k 1).val = q.val) :
    (iblk1 V c 3 t : Vec Ideal S5000x128 .f32) (ix2 p q) = (V c main_v0_0 : S50000x128.Idx → EReal) k := by
  obtain ⟨-, -, -, -, -, -, e0, e1, -⟩ := index_facts t
  unfold iblk1
  rw [View.read_apply]
  show V c main_v0_0 _ = V c main_v0_0 k
  refine congrArg (V c main_v0_0) (funext fun a => Fin.ext ?_)
  match a with
  | ⟨0, _⟩ => show win1_3.index t (0 : Fin 2) * 5000 + 1 * p.val = (k 0).val; rw [e0, hk0]; omega
  | ⟨1, _⟩ => show win1_3.index t (1 : Fin 2) * 128 + 1 * q.val = (k 1).val; rw [e1, hk1]; omega

/-- `outArr` at an index whose column is q. -/
theorem outArr_at (agg : S50000x128.Idx → EReal) (bias : S1x128.Idx → EReal) (mask inp : S50000x128.Idx → EReal)
    (k : S50000x128.Idx) (q : Fin 128) (h1 : (k 1).val = q.val) :
    outArr agg bias mask inp k = (agg k + bias (ix2 (0 : Fin 1) q)) * mask k - inp k := by
  unfold outArr
  rw [show (⟨(k 1).val, (k 1).isLt⟩ : Fin 128) = q from Fin.ext h1]

/-- What tile t writes back is rows 5000 t … of `outArr` of the four arrays as the region found them. -/
theorem flushed_eq (c : Dev nD) (t : Fin cfg1.N) :
    (dat1 V c).flushed 4 t = ((cfg1.win 4).blk t).view.read (Elt Ideal)
      (outArr (V c main_v17) (V c main_v18) (V c main_arg5) (V c main_v0_0)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S1x128) zero_offsets]
  obtain ⟨-, -, -, -, -, -, -, -, e0, e1⟩ := index_facts t
  funext j
  obtain ⟨p, q, rfl⟩ : ∃ (p : Fin 5000) (q : Fin 128), j = ix2 p q := ⟨j 0, j 1, eq_ix2 j⟩
  have hk0 : ((((cfg1.win 4).blk t).view.emb (ix2 p q)) 0).val = 5000 * t.val + p.val := by
    show win1_4.index t (0 : Fin 2) * 5000 + 1 * p.val = 5000 * t.val + p.val; rw [e0]; omega
  have hk1 : ((((cfg1.win 4).blk t).view.emb (ix2 p q)) 1).val = q.val := by
    show win1_4.index t (1 : Fin 2) * 128 + 1 * q.val = q.val; rw [e1]; omega
  show k1_pay1 (iblk1 V c 0 t) (iblk1 V c 1 t) (iblk1 V c 2 t) (iblk1 V c 3 t) (ix2 p q)
    = outArr (V c main_v17) (V c main_v18) (V c main_arg5) (V c main_v0_0) (((cfg1.win 4).blk t).view.emb (ix2 p q))
  rw [outArr_at _ _ _ _ _ q hk1]
  refine (payload_apply (iblk1 V c 0 t) (iblk1 V c 1 t) (iblk1 V c 2 t) (iblk1 V c 3 t) p q).trans ?_
  rw [agg_tile V c t p q _ hk0 hk1, bias_row V c t q, mask_tile V c t p q _ hk0 hk1, normed_tile V c t p q _ hk0 hk1]

/-- An index of the result array lies in tile t's block iff each coordinate lies in the block's range. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v19).slice (win1_4.rect t)).set ↔ _
  rw [View.set_slice_whole, Rect.mem_set_unit]
  exact Iff.rfl

/-- The tile that holds row r. -/
def tileOf (i : S50000x128.Idx) : Fin cfg1.N :=
  ⟨(i 0).val / 5000, by have h : (i 0).val < 50000 := (i 0).isLt; have hN : cfg1.N = 10 := N_1; omega⟩

/-- Every index of the result array is in the block of the tile that holds its row. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  refine ⟨tileOf i, flush1_4 _, ?_⟩
  rw [mem_blk]
  obtain ⟨-, -, -, -, -, -, -, -, e0, e1⟩ := index_facts (tileOf i)
  have ht : (tileOf i).val = (i 0).val / 5000 := rfl
  intro a
  match a with
  | ⟨0, _⟩ =>
    show win1_4.index (tileOf i) (0 : Fin 2) * 5000 ≤ (i 0).val ∧ (i 0).val < win1_4.index (tileOf i) (0 : Fin 2) * 5000 + 5000
    rw [e0, ht]; omega
  | ⟨1, _⟩ =>
    show win1_4.index (tileOf i) (1 : Fin 2) * 128 ≤ (i 1).val ∧ (i 1).val < win1_4.index (tileOf i) (1 : Fin 2) * 128 + 128
    rw [e1]; omega

/-- After the region the result array is `outArr` of the four arrays as the region found them. -/
theorem final (c : Dev nD) :
    (dat1 V c).arrAt 4 cfg1.N = outArr (V c main_v17) (V c main_v18) (V c main_arg5) (V c main_v0_0) :=
  (dat1 V c).arrAt_eq_of_cover 4 (outArr (V c main_v17) (V c main_v18) (V c main_arg5) (V c main_v0_0))
    (fun t _ => flushed_eq V c t) cover

end Cert.KernelIdeal.FinalizeValue

end
-- ==== Proof.EdgeStage.lean ====
/-
  The stretch of host operations between the two regions, read at the buffers the second region takes.

  From the projected array h, the edge list (a 2 × 800000 array of words: row 0 the sources, row 1 the
  destinations) and the edge weights, the stretch gathers row src(e) of h for every edge e (a negative source
  first has 50000 added, as jnp indexing does), scales it by the weight of e, and adds it into row dst(e) of an
  array of zeros: `edgeSum`.  It also keeps the bias vector as a 1 × 128 row.  It writes neither the dropout mask
  nor the normalised array.  The gather and the scatter-add are left as the operations they are: both programs
  apply the same ones to the same operands, so nothing about them is needed beyond that.
-/
import proofs.«172591_j31980326486308_1_alg».proof.Proof.Gen.KernelIdeal.Launch
import Idealize.ShloMosaic.Lib.StableHlo.Run

noncomputable section

namespace Cert.KernelIdeal.EdgeStage

open Idealize.ShloMosaic Idealize.ShloMosaic.TcCoe Idealize.SL.Sem Idealize.ShloMosaic.StableHlo
open Cert.KernelIdeal Cert.KernelIdeal.Gen

variable {F : FTy → Type} [FloatOps F]

/-- Row `r` of the edge list as a vector of 800000 words. -/
def edgeRow (r : ℕ) (hr : S2x800000.Slices ![r, 0] S1x800000)
    (ei : (⟨S2x800000, .i32⟩ : BufTy).Contents (Elt F)) : (⟨S800000, .i32⟩ : BufTy).Contents (Elt F) :=
  shapeCast S800000 (extractStridedSlice S1x800000 ![r, 0] ei hr) shapeCasts_S1x800000_S800000

/-- The sources, a negative one moved up by the number of rows. -/
def sources (ei : (⟨S2x800000, .i32⟩ : BufTy).Contents (Elt F)) : (⟨S800000, .i32⟩ : BufTy).Contents (Elt F) :=
  select (cmpi .slt (edgeRow (F := F) 0 slices_S2x800000_S1x800000_0_0 ei) (broadcastInDim S800000 ![] bcast_S_S800000 (constantI S_ 32 0#32)))
    (addi (edgeRow (F := F) 0 slices_S2x800000_S1x800000_0_0 ei) (broadcastInDim S800000 ![] bcast_S_S800000 (constantI S_ 32 50000#32)))
    (edgeRow (F := F) 0 slices_S2x800000_S1x800000_0_0 ei)

/-- The weighted messages summed into their destination rows. -/
def edgeSum (h : (⟨S50000x128, .f32⟩ : BufTy).Contents (Elt F)) (ei : (⟨S2x800000, .i32⟩ : BufTy).Contents (Elt F))
    (ew : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (edgeRow (F := F) 1 slices_S2x800000_S1x800000_1_0 ei))
    (mulf (Host.gather gather_S50000x128_S800000x1_S800000x128_1_0_n_n_0_1_1128 h
        (broadcastInDim S800000x1 ![0] bcast_S800000_S800000x1_0 (sources (F := F) ei)))
      (broadcastInDim S800000x128 ![0, 1] bcast_S800000x1_S800000x128_0_1
        (broadcastInDim S800000x1 ![0] bcast_S800000_S800000x1_0 ew)))

variable (W : Valuation τ sig (Elt F))

/-- After the stretch the aggregate's buffer holds `edgeSum` of the projected array, the edge list and the weights. -/
theorem after_agg :
    StableHlo.after (hostOps1 (F := F)) W (Proc.devRef .tc main_v17)
      = edgeSum (F := F) (W (Proc.devRef .tc main_v0_1)) (W (Proc.devRef .tc main_arg1)) (W (Proc.devRef .tc main_arg2)) := by
  after_results
  rfl

/-- After the stretch the bias row's buffer holds the bias vector as a 1 × 128 row. -/
theorem after_bias :
    StableHlo.after (hostOps1 (F := F)) W (Proc.devRef .tc main_v18)
      = shapeCast S1x128 (W (Proc.devRef .tc main_arg4)) shapeCasts_S128_S1x128 := by
  after_results
  rfl

/-- The stretch does not write the dropout mask. -/
theorem after_mask :
    StableHlo.after (hostOps1 (F := F)) W (Proc.devRef .tc main_arg5) = W (Proc.devRef .tc main_arg5) := by
  after_results

/-- The stretch does not write the normalised array. -/
theorem after_normed :
    StableHlo.after (hostOps1 (F := F)) W (Proc.devRef .tc main_v0_0) = W (Proc.devRef .tc main_v0_0) := by
  after_results

end Cert.KernelIdeal.EdgeStage

end
-- ==== Proof.RefBridge.lean ====
/-
  The reference's stages, read at an entry, are the functions of `Cert.LayerNormSpec`.

  The reference computes on whole arrays: the row sums of the 50000 × 128 argument kept as a column, divided by
  128.0 and repeated along the columns; the centred array; the same for the squares; ε added, the reciprocal
  square root, the product; then the product with the weights.  Each stage, read at (p, q) through the index maps
  of its layout operations, is the specification's value for row p: the two sums start from the float zero, which
  is the real zero; the host's quotient and reciprocal square root are the extended reals' own.
-/
import proofs.«172591_j31980326486308_1_alg».proof.Proof.Gen.ReferenceIdeal.Read
import proofs.«172591_j31980326486308_1_alg».proof.Proof.Spec
import Idealize.ShloMosaic.Lib.ValueIdx
import Idealize.ShloMosaic.PureOps.Ideal.Laws

noncomputable section

open scoped BigOperators

namespace Cert.ReferenceIdeal.Bridge

open Idealize.ShloMosaic Idealize.ShloMosaic.ValueIdx
open Cert.ReferenceIdeal Cert.ReferenceIdeal.Gen Cert.ReferenceIdeal.Read Cert.LayerNormSpec

variable (x : S50000x128.Idx → EReal)

/-- The row means, kept as a column. -/
theorem mean_apply (p : Fin 50000) (u : Fin 1) : val_main_v3 (F := Ideal) x (ix2 p u) = rowMean x p := by
  rw [val_main_v3_apply, val_main_v1_apply, val_main_v2_apply, val_main_cst_0_apply, val_main_v0_apply, val_main_cst_apply]
  unfold rowMean
  simp only [Ideal.hostDivf_def, Ideal.ofBits_def, Ideal.ofBits_zero_f32, zero_add]
  refine congrArg₂ Ideal.div (Finset.sum_congr rfl fun k _ => congrArg x ?_) rfl
  exact funext fun a => Fin.ext (by match a with | ⟨0, _⟩ => rfl | ⟨1, _⟩ => rfl)

/-- The centred array (the copy the variance is taken from). -/
theorem centred_apply (p : Fin 50000) (q : Fin 128) : val_main_v5 (F := Ideal) x (ix2 p q) = centred x p q := by
  rw [val_main_v5_apply, val_main_v4_apply,
    show idx_main_v4 (ix2 p q) = ix2 p (0 : Fin 1) from funext fun a => Fin.ext (by match a with | ⟨0, _⟩ => rfl | ⟨1, _⟩ => rfl), mean_apply]
  rfl

/-- The row variances, kept as a column. -/
theorem var_apply (p : Fin 50000) (u : Fin 1) : val_main_v10 (F := Ideal) x (ix2 p u) = rowVar x p := by
  rw [val_main_v10_apply, val_main_v8_apply, val_main_v9_apply, val_main_cst_2_apply, val_main_v7_apply, val_main_cst_1_apply]
  unfold rowVar
  simp only [Ideal.hostDivf_def, Ideal.ofBits_def, Ideal.ofBits_zero_f32, zero_add]
  refine congrArg₂ Ideal.div (Finset.sum_congr rfl fun k _ => ?_) rfl
  rw [show idx_main_v7 (idx_main_v8 (ix2 p u)) k = ix2 p k from funext fun a => Fin.ext (by match a with | ⟨0, _⟩ => rfl | ⟨1, _⟩ => rfl), val_main_v6_apply, centred_apply]
  rfl

/-- The reciprocal square roots of the stabilised variances, kept as a column. -/
theorem scale_apply (p : Fin 50000) (u : Fin 1) :
    val_main_v15 (F := Ideal) x (ix2 p u) = Ideal.rsqrt (rowVar x p + eps) := by
  rw [val_main_v15_apply, val_main_v14_apply, val_main_v13_apply, val_main_cst_3_apply, var_apply]
  rfl

/-- The normalised array at (p, q). -/
theorem normed_apply (p : Fin 50000) (q : Fin 128) : val_main_v17 (F := Ideal) x (ix2 p q) = normed x p q := by
  rw [val_main_v17_apply, val_main_v12_apply, val_main_v11_apply, val_main_v16_apply,
    show idx_main_v11 (ix2 p q) = ix2 p (0 : Fin 1) from funext fun a => Fin.ext (by match a with | ⟨0, _⟩ => rfl | ⟨1, _⟩ => rfl),
    show idx_main_v16 (ix2 p q) = ix2 p (0 : Fin 1) from funext fun a => Fin.ext (by match a with | ⟨0, _⟩ => rfl | ⟨1, _⟩ => rfl), mean_apply, scale_apply]
  rfl

/-- The normalised array is `normedArr` of the argument. -/
theorem normed_eq : val_main_v17 (F := Ideal) x = normedArr x := funext fun i => by
  obtain ⟨p, q, rfl⟩ : ∃ (p : Fin 50000) (q : Fin 128), i = ix2 p q := ⟨i 0, i 1, eq_ix2 i⟩
  rw [normed_apply, normedArr_at x (ix2 p q) p q rfl rfl]

variable (w : S128x128.Idx → EReal)

/-- The projected array at (p, q). -/
theorem proj_apply (p : Fin 50000) (q : Fin 128) : val_main_v18 (F := Ideal) x w (ix2 p q) = proj x w p q := by
  rw [val_main_v18_apply]
  unfold proj
  refine Finset.sum_congr rfl fun k _ => ?_
  rw [show lidx_main_v18 (ix2 p q) k = ix2 p k from funext fun a => Fin.ext (by match a with | ⟨0, _⟩ => rfl | ⟨1, _⟩ => rfl),
    show ridx_main_v18 (ix2 p q) k = ix2 k q from funext fun a => Fin.ext (by match a with | ⟨0, _⟩ => rfl | ⟨1, _⟩ => rfl), normed_apply]

/-- The projected array is `projArr` of the argument and the weights. -/
theorem proj_eq : val_main_v18 (F := Ideal) x w = projArr x w := funext fun i => by
  obtain ⟨p, q, rfl⟩ : ∃ (p : Fin 50000) (q : Fin 128), i = ix2 p q := ⟨i 0, i 1, eq_ix2 i⟩
  rw [proj_apply, projArr_at x w (ix2 p q) p q rfl rfl]

/-- The bias repeated along the rows reads, at (p, q), the bias of column q. -/
theorem bias_apply (b : S128.Idx → EReal) (p : Fin 50000) (q : Fin 128) :
    val_main_v37 (F := Ideal) b (ix2 p q) = b (ix1 q) := by
  rw [val_main_v37_apply, val_main_v36_apply]
  exact congrArg b (funext fun a => Fin.ext (by match a with | ⟨0, _⟩ => rfl))

end Cert.ReferenceIdeal.Bridge

end
-- ==== Proof.ValueBridge.lean ====
/-
  The idealized kernel's result and the idealized reference's result are one function of the six arguments.

  Kernel side: the result buffer after the last segment is what the second region's write-backs leave,
  (agg + bias) · mask − normalised, of the arrays that region is entered with; those are what the host stretch
  leaves — agg the weighted messages summed into their destination rows, bias the bias vector as a row, the mask
  and the normalised array untouched — of the arrays the first region leaves: the normalised and the projected
  array of the launch arguments.  Composed, this is `result` of the six launch arguments.
  Reference side: its last stage, read at an entry through its layout operations, is the same expression, its
  aggregate the same gather, scaling and scatter-add applied to the same projected array.
-/
import proofs.«172591_j31980326486308_1_alg».proof.Proof.KernelRun
import proofs.«172591_j31980326486308_1_alg».proof.Proof.NormValue
import proofs.«172591_j31980326486308_1_alg».proof.Proof.FinalizeValue
import proofs.«172591_j31980326486308_1_alg».proof.Proof.EdgeStage
import proofs.«172591_j31980326486308_1_alg».proof.Proof.RefBridge
import Idealize.ShloMosaic.Lib.ValueLayout

set_option maxRecDepth 16384

noncomputable section

namespace Cert.KernelIdeal.Result

open Idealize.ShloMosaic Idealize.ShloMosaic.TcCoe Idealize.SL.Sem Idealize.ShloMosaic.ValueIdx
open Cert.KernelIdeal Cert.KernelIdeal.Gen Cert.LayerNormSpec
open Cert.KernelIdeal.FinalizeValue (outArr outArr_at)
open Cert.KernelIdeal.EdgeStage (edgeSum)

/-- The whole computation as one function of the six arguments, entry by entry. -/
def result (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x128, .f32⟩ : BufTy).Contents (Elt Ideal))
    (x4 : (⟨S128, .f32⟩ : BufTy).Contents (Elt Ideal)) (x5 : (⟨S50000x128, .f32⟩ : BufTy).Contents (Elt Ideal)) :
    (⟨S50000x128, .f32⟩ : BufTy).Contents (Elt Ideal) :=
  outArr (edgeSum (F := Ideal) (projArr x0 x3) x1 x2) (shapeCast S1x128 x4 shapeCasts_S128_S1x128) x5 (normedArr x0)

variable (m : (ℓ : Loc nD τ sig) → Buf (Elt Ideal) ℓ) (ρ : Dev nD → PrngReg)

/-- The result buffer after the last segment is `result` of the launch arguments. -/
theorem kernel_value (c : Dev nD) :
    W3 m ρ c (Proc.devRef .tc main_v19)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  have h17 : V2 m ρ c main_v17 = edgeSum (F := Ideal) (W1 m ρ c (Proc.devRef .tc main_v0_1))
      (W1 m ρ c (Proc.devRef .tc main_arg1)) (W1 m ρ c (Proc.devRef .tc main_arg2)) := EdgeStage.after_agg (W1 m ρ c)
  have h18 : V2 m ρ c main_v18 = shapeCast S1x128 (W1 m ρ c (Proc.devRef .tc main_arg4)) shapeCasts_S128_S1x128 :=
    EdgeStage.after_bias (W1 m ρ c)
  have h5 : V2 m ρ c main_arg5 = W1 m ρ c (Proc.devRef .tc main_arg5) := EdgeStage.after_mask (W1 m ρ c)
  have h00 : V2 m ρ c main_v0_0 = W1 m ρ c (Proc.devRef .tc main_v0_0) := EdgeStage.after_normed (W1 m ρ c)
  have g01 : W1 m ρ c (Proc.devRef .tc main_v0_1)
      = projArr (m ((c.tc : Thread nD τ).loc main_arg0)) (m ((c.tc : Thread nD τ).loc main_arg3)) :=
    (W1_arr m ρ c 3).trans (NormValue.final3 (V0 m ρ) c)
  have g00 : W1 m ρ c (Proc.devRef .tc main_v0_0) = normedArr (m ((c.tc : Thread nD τ).loc main_arg0)) :=
    (W1_arr m ρ c 2).trans (NormValue.final2 (V0 m ρ) c)
  have a1 : W1 m ρ c (Proc.devRef .tc main_arg1) = m ((c.tc : Thread nD τ).loc main_arg1) := W1_of_ne m ρ c main_arg1 (by decide)
  have a2 : W1 m ρ c (Proc.devRef .tc main_arg2) = m ((c.tc : Thread nD τ).loc main_arg2) := W1_of_ne m ρ c main_arg2 (by decide)
  have a4 : W1 m ρ c (Proc.devRef .tc main_arg4) = m ((c.tc : Thread nD τ).loc main_arg4) := W1_of_ne m ρ c main_arg4 (by decide)
  have a5 : W1 m ρ c (Proc.devRef .tc main_arg5) = m ((c.tc : Thread nD τ).loc main_arg5) := W1_of_ne m ρ c main_arg5 (by decide)
  refine (W3_arr m ρ c 4).trans ?_
  rw [FinalizeValue.final (V2 m ρ) c, h17, h18, h5, h00, g01, g00, a1, a2, a4, a5]
  rfl

/-- The reference's aggregate is the same gather, scaling and scatter-add, of its own projected array. -/
theorem ref_agg (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x128, .f32⟩ : BufTy).Contents (Elt Ideal)) :
    Cert.ReferenceIdeal.Read.val_main_v35 (F := Ideal) x0 x1 x2 x3
      = edgeSum (F := Ideal) (Cert.ReferenceIdeal.Read.val_main_v18 (F := Ideal) x0 x3) x1 x2 := rfl

/-- The reference's last stage is `result` of the six arguments. -/
theorem ref_value (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x128, .f32⟩ : BufTy).Contents (Elt Ideal))
    (x4 : (⟨S128, .f32⟩ : BufTy).Contents (Elt Ideal)) (x5 : (⟨S50000x128, .f32⟩ : BufTy).Contents (Elt Ideal)) :
    Cert.ReferenceIdeal.Read.val_main_v40 (F := Ideal) x0 x1 x2 x3 x4 x5 = result x0 x1 x2 x3 x4 x5 := by
  funext i
  obtain ⟨p, q, rfl⟩ : ∃ (p : Fin 50000) (q : Fin 128), i = ix2 p q := ⟨i 0, i 1, eq_ix2 i⟩
  rw [Cert.ReferenceIdeal.Read.val_main_v40_apply, Cert.ReferenceIdeal.Read.val_main_v39_apply,
    Cert.ReferenceIdeal.Read.val_main_v38_apply, ref_agg, Cert.ReferenceIdeal.Bridge.proj_eq,
    Cert.ReferenceIdeal.Bridge.bias_apply, Cert.ReferenceIdeal.Bridge.normed_apply]
  unfold result
  rw [outArr_at _ _ _ _ (ix2 p q) q rfl, shapeCast_a_1a_apply, normedArr_at x0 (ix2 p q) p q rfl rfl]
  rfl

end Cert.KernelIdeal.Result

end
-- ==== Proof.lean ====
/-
  A graph-convolution layer: layer normalisation of 50000 node rows of 128 features, the product with a
  128 × 128 weight matrix, the edge-weighted sum of the projected rows of each node's in-neighbours over
  800000 edges, then  (aggregate + bias) · dropout mask − normalised input.

  The kernel does the normalisation and the product in one pass over ten tiles of 5000 rows, the neighbour sum as
  host operations (a gather, a scaling, a scatter-add), and the last expression in a second pass over the same ten
  tiles.  The reference does everything on whole arrays.  On the extended reals the two agree entry by entry
  without any algebra: a row's mean, variance, normalised and projected entries depend on that row alone, so a
  tile of the kernel's result is the same tile of the reference's arrays; the neighbour sum is the same three
  operations applied to equal operands; the final expression is pointwise.  The rounding to bf16 before the
  kernel's product is the identity on the extended reals, and no constant is folded on either side, so the
  precondition (finite inputs) is never opened and the idealization ledger is empty.

  The modules: Spec (the row functions), NormPayload and NormValue (the first pass: body, then arrays),
  EdgeStage (the host stretch), FinalizeValue (the second pass), KernelRun (the kernel's run with its result
  named), RefBridge (the reference's stages as the row functions), ValueBridge (both results as one function).
-/
import proofs.«172591_j31980326486308_1_alg».proof.Defs
import proofs.«172591_j31980326486308_1_alg».proof.Proof.Gen.Kernel
import proofs.«172591_j31980326486308_1_alg».proof.Proof.Gen.Kernel.Skeleton
import proofs.«172591_j31980326486308_1_alg».proof.Proof.Gen.Kernel.Launch
import proofs.«172591_j31980326486308_1_alg».proof.Proof.Gen.Kernel.Points
import proofs.«172591_j31980326486308_1_alg».proof.Proof.Gen.Kernel.Frame
import proofs.«172591_j31980326486308_1_alg».proof.Proof.Gen.KernelIdeal
import proofs.«172591_j31980326486308_1_alg».proof.Proof.Gen.KernelIdeal.Skeleton
import proofs.«172591_j31980326486308_1_alg».proof.Proof.Gen.KernelIdeal.Launch
import proofs.«172591_j31980326486308_1_alg».proof.Proof.Gen.KernelIdeal.Points
import proofs.«172591_j31980326486308_1_alg».proof.Proof.Gen.KernelIdeal.Frame
import proofs.«172591_j31980326486308_1_alg».proof.Proof.Gen.ReferenceIdeal
import proofs.«172591_j31980326486308_1_alg».proof.Proof.Gen.Pre_finite_inputs
import proofs.«172591_j31980326486308_1_alg».proof.Proof.Gen.ReferenceIdeal.Run
import proofs.«172591_j31980326486308_1_alg».proof.Proof.Gen.ReferenceIdeal.Read
import proofs.«172591_j31980326486308_1_alg».proof.Proof.ValueBridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments both idealized programs end with the result at
    `Cert.KernelIdeal.Result.result` of the arguments: the kernel by its run through the three segments, the
    reference by its run read one operation at a time. -/
theorem algebraic : Cert.algebraic_KernelIdeal_ReferenceIdeal := by
  intro m ρ m' ρ' _ hagree
  refine ⟨fun c => Cert.KernelIdeal.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.kernel_value m ρ c), (h c).2⟩)
      (Cert.KernelIdeal.ValueRun.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v40_eq, Cert.KernelIdeal.Result.ref_value, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
